-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x64 : Shape := ⟨2, ![16, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg8 : FVec F S16x64 .f32) (main_arg9 : FVec F S64 .f32) (main_v33 : IVec S_ 1) : IVec S_ 1 :=
  let main_v34 : FVec F S16x64 .f32 := Host.absf main_arg8
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64x16 .f32) (main_arg6 : FVec F S16 .f32) (main_arg7 : FVec F S16x64 .f32) (main_arg8 : FVec F S16x64 .f32) (main_arg9 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x64 .f32 := Host.absf main_arg7
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x64 .f32) (main_arg3 : FVec F S64 .f32) (main_arg4 : FVec F S64x16 .f32) (main_arg5 : FVec F S64x16 .f32) (main_arg6 : FVec F S16 .f32) (main_arg7 : FVec F S16x64 .f32) (main_arg8 : FVec F S16x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x64 : Shape := ⟨2, ![16, 64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1x64 : Shape := ⟨2, ![1, 64]⟩
abbrev S5000x64 : Shape := ⟨2, ![5000, 64]⟩
abbrev S1000000x64 : Shape := ⟨2, ![1000000, 64]⟩
abbrev S1x16 : Shape := ⟨2, ![1, 16]⟩
abbrev S100000x16 : Shape := ⟨2, ![100000, 16]⟩
abbrev S5000x1 : Shape := ⟨2, ![5000, 1]⟩
abbrev S5000x16 : Shape := ⟨2, ![5000, 16]⟩
abbrev S1000000x16 : Shape := ⟨2, ![1000000, 16]⟩

abbrev nBuf : Space → Nat
  | .hbm => 56
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S64x16, .f32⟩
  | .hbm, ⟨6, _⟩ => ⟨S16, .f32⟩
  | .hbm, ⟨7, _⟩ => ⟨S16x64, .f32⟩
  | .hbm, ⟨8, _⟩ => ⟨S16x64, .f32⟩
  | .hbm, ⟨9, _⟩ => ⟨S64, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S1x64, .f32⟩
  | .hbm, ⟨25, _⟩ => ⟨S100000x64, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S_, .f32⟩
  | .hbm, ⟨36, _⟩ => ⟨S100000x64, .f32⟩
  | .hbm, ⟨37, _⟩ => ⟨S1000000x1, .i32⟩
  | .hbm, ⟨38, _⟩ => ⟨S100000x64, .f32⟩
  | .hbm, ⟨39, _⟩ => ⟨S1x16, .f32⟩
  | .hbm, ⟨40, _⟩ => ⟨S100000x16, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x16, .f32⟩
  | .hbm, ⟨50, _⟩ => ⟨S_, .f32⟩
  | .hbm, ⟨51, _⟩ => ⟨S100000x16, .f32⟩
  | .hbm, ⟨52, _⟩ => ⟨S1000000x1, .i32⟩
  | .hbm, ⟨53, _⟩ => ⟨S100000x16, .f32⟩
  | .hbm, ⟨54, _⟩ => ⟨S1x64, .f32⟩
  | .hbm, ⟨55, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S64x16, .f32⟩
  | .local _ .vmem, ⟨13, _⟩ => ⟨S64x16, .f32⟩
  | .local _ .vmem, ⟨14, _⟩ => ⟨S1x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x1, .f32⟩
  | .local _ .vmem, ⟨20, _⟩ => ⟨S5000x1, .f32⟩
  | .local _ .vmem, ⟨21, _⟩ => ⟨S5000x16, .f32⟩
  | .local _ .vmem, ⟨22, _⟩ => ⟨S5000x16, .f32⟩
  | .local _ .vmem, ⟨23, _⟩ => ⟨S16x64, .f32⟩
  | .local _ .vmem, ⟨24, _⟩ => ⟨S16x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S100000x64 : S_.BroadcastsInDim S100000x64 (![] : Fin 0 → Fin S100000x64.rank)
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  broadcasts_S5000x1_S5000x16 : S5000x1.Broadcasts S5000x16
  inb_S16x64_S16x64_0_0 : ∀ a, (![0, 0] : Fin 2 → Nat) a + S16x64.size a ≤ S16x64.size a
  h_S16x64 : 0 < S16x64.numel
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x16_S5000x16_1_0_0_1_n_n_wf : DotDims.WF S5000x64 S64x16 S5000x16 [1] [0] [0] [1] [] []
  gather_S100000x16_S1000000x1_S1000000x16_1_0_n_n_0_1_116_wf : GatherDims.WF S100000x16 S1000000x1 S1000000x16 [1] [0] [] [0] [] 1 ![1, 16]
  scatter_S100000x16_S1000000x1_S1000000x16_1_0_0_1_wf : ScatterDims.WF S100000x16 S1000000x1 S1000000x16 [1] [0] [0] 1
  dot_S5000x16_S16x64_S5000x64_1_0_0_1_n_n_wf : DotDims.WF S5000x16 S16x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .f32 = 32 ∨ (Rect.block (s := S64x16) S64x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x64.size a ≤ S16x64.size a
  hwx2_3 : ∀ i : grid2.Coords, EltTy.bits .f32 = 32 ∨ (Rect.block (s := S16x64) S16x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x64.size a ≤ S16x64.size a
  hwx2_4 : ∀ i : grid2.Coords, EltTy.bits .f32 = 32 ∨ (Rect.block (s := S16x64) S16x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S16x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S16x64 : Shape := ⟨2, ![16, 64]⟩
abbrev S1x1000000 : Shape := ⟨2, ![1, 1000000]⟩
abbrev S1000000 : Shape := ⟨1, ![1000000]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩
abbrev S1000000x16 : Shape := ⟨2, ![1000000, 16]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S64x16, .f32⟩
  | .hbm, ⟨6, _⟩ => ⟨S16, .f32⟩
  | .hbm, ⟨7, _⟩ => ⟨S16x64, .f32⟩
  | .hbm, ⟨8, _⟩ => ⟨S16x64, .f32⟩
  | .hbm, ⟨9, _⟩ => ⟨S64, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S_, .f32⟩
  | .hbm, ⟨28, _⟩ => ⟨S100000x64, .f32⟩
  | .hbm, ⟨29, _⟩ => ⟨S1000000x1, .i32⟩
  | .hbm, ⟨30, _⟩ => ⟨S100000x64, .f32⟩
  | .hbm, ⟨31, _⟩ => ⟨S_, .f32⟩
  | .hbm, ⟨32, _⟩ => ⟨S1000000, .f32⟩
  | .hbm, ⟨33, _⟩ => ⟨S_, .f32⟩
  | .hbm, ⟨34, _⟩ => ⟨S100000, .f32⟩
  | .hbm, ⟨35, _⟩ => ⟨S1000000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S1x16, .f32⟩
  | .hbm, ⟨47, _⟩ => ⟨S100000x16, .f32⟩
  | .hbm, ⟨48, _⟩ => ⟨S100000x16, .f32⟩
  | .hbm, ⟨49, _⟩ => ⟨S100000x16, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x16, .f32⟩
  | .hbm, ⟨59, _⟩ => ⟨S_, .f32⟩
  | .hbm, ⟨60, _⟩ => ⟨S100000x16, .f32⟩
  | .hbm, ⟨61, _⟩ => ⟨S1000000x1, .i32⟩
  | .hbm, ⟨62, _⟩ => ⟨S100000x16, .f32⟩
  | .hbm, ⟨63, _⟩ => ⟨S_, .f32⟩
  | .hbm, ⟨64, _⟩ => ⟨S1000000, .f32⟩
  | .hbm, ⟨65, _⟩ => ⟨S_, .f32⟩
  | .hbm, ⟨66, _⟩ => ⟨S100000, .f32⟩
  | .hbm, ⟨67, _⟩ => ⟨S1000000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x16, .f32⟩
  | .hbm, ⟨74, _⟩ => ⟨S100000x16, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x16_S100000x16_1_0_0_1_n_n_wf : DotDims.WF S100000x64 S64x16 S100000x16 [1] [0] [0] [1] [] []
  gather_S100000x16_S1000000x1_S1000000x16_1_0_n_n_0_1_116_wf : GatherDims.WF S100000x16 S1000000x1 S1000000x16 [1] [0] [] [0] [] 1 ![1, 16]
  scatter_S100000x16_S1000000x1_S1000000x16_1_0_0_1_wf : ScatterDims.WF S100000x16 S1000000x1 S1000000x16 [1] [0] [0] 1
  dot_S100000x16_S16x64_S100000x64_1_0_0_1_n_n_wf : DotDims.WF S100000x16 S16x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf

class Facts : Prop extends Facts₀ where

variable [Facts]
-- ==== Proof.KernelRun.lean ====
/-
  The idealized kernel's run with its result named.

  The program is three grids of row blocks among stretches of host operations. Its buffer contents at every boundary
  are a fold from the launch memory: a stretch of host operations applies them, a grid leaves each of its arrays at what
  its write-backs make of it and every other buffer alone. Every weakly fair execution ends with each unscoped buffer
  at the last boundary's contents; read at the result buffer this names the result, and read at an argument it is the
  argument as launched.
-/
import proofs.«123004_j10307921511081_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibSageStages.lean ====
/-
  The two dense stages of a two-layer neighbourhood-averaging network, read at an index on the extended reals.

  The linear stage sends row p of an n × cin matrix X to the cout numbers  ∑ₖ X(p,k)·W(k,q) + b(q),  the bias b kept as a
  1 × cout row (`lin`). The combine stage takes, for every node p, the sum S(p,·) of its neighbours' features, the
  node's degree d(p) kept as an n × 1 column, and the node's own features H(p,·), and returns
  tanh( ∑ₖ (S(p,k) / d(p))·Wa(k,q) + ∑ₖ H(p,k)·Wr(k,q) + b(q) )  (`comb`).

  Each stage is met in two spellings. A kernel works on a block of m rows: it multiplies into a zero accumulator
  (its operands passed through a change of float format, which is the identity on the extended reals), repeats the
  degree column across the columns and the bias row down the rows as vector broadcasts, and takes tanh
  (`klin_apply`, `kcomb_apply`). The host works on all n rows with general dot products and dimension broadcasts
  (`hlin`, `hcomb`). Entry (p, q) depends on row p only, so a block of rows of the stage is the stage of that block of
  rows; there is no law to prove beyond reading each operation at (p, q). All over variable extents.
-/
import proofs.«123004_j10307921511081_1_alg».proof.Proof.LibPlainDot
import proofs.«123004_j10307921511081_1_alg».proof.Proof.LibRowBroadcasts
import proofs.«123004_j10307921511081_1_alg».proof.Proof.LibKeepdims
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx Cert.Lib
open scoped BigOperators

variable {n m cin cout : Nat}

/-! ## The two stages -/

/-- Unit q of the linear stage at row p. -/
def linAt (X : (⟨2, ![n, cin]⟩ : Shape).Idx → EReal) (W : (⟨2, ![cin, cout]⟩ : Shape).Idx → EReal)
    (b : (⟨2, ![1, cout]⟩ : Shape).Idx → EReal) (p : Fin n) (q : Fin cout) : EReal :=
  (∑ k : Fin cin, X (ix2 p k) * W (ix2 k q)) + b (ix2 (0 : Fin 1) q)

/-- The linear stage as one array. -/
def lin (X : (⟨2, ![n, cin]⟩ : Shape).Idx → EReal) (W : (⟨2, ![cin, cout]⟩ : Shape).Idx → EReal)
    (b : (⟨2, ![1, cout]⟩ : Shape).Idx → EReal) : (⟨2, ![n, cout]⟩ : Shape).Idx → EReal :=
  fun j => linAt X W b (j 0) (j 1)

/-- Unit q of the combine stage at node p. -/
def combAt (S : (⟨2, ![n, cin]⟩ : Shape).Idx → EReal) (d : (⟨2, ![n, 1]⟩ : Shape).Idx → EReal)
    (H : (⟨2, ![n, cin]⟩ : Shape).Idx → EReal) (Wa Wr : (⟨2, ![cin, cout]⟩ : Shape).Idx → EReal)
    (b : (⟨2, ![1, cout]⟩ : Shape).Idx → EReal) (p : Fin n) (q : Fin cout) : EReal :=
  Ideal.tanh (((∑ k : Fin cin, Ideal.div (S (ix2 p k)) (d (ix2 p (0 : Fin 1))) * Wa (ix2 k q))
    + (∑ k : Fin cin, H (ix2 p k) * Wr (ix2 k q))) + b (ix2 (0 : Fin 1) q))

/-- The combine stage as one array. -/
def comb (S : (⟨2, ![n, cin]⟩ : Shape).Idx → EReal) (d : (⟨2, ![n, 1]⟩ : Shape).Idx → EReal)
    (H : (⟨2, ![n, cin]⟩ : Shape).Idx → EReal) (Wa Wr : (⟨2, ![cin, cout]⟩ : Shape).Idx → EReal)
    (b : (⟨2, ![1, cout]⟩ : Shape).Idx → EReal) : (⟨2, ![n, cout]⟩ : Shape).Idx → EReal :=
  fun j => combAt S d H Wa Wr b (j 0) (j 1)

/-! ## The kernel's spelling, on a block of m rows -/

/-- The kernel's linear stage at (p, q) of its block. -/
theorem klin_apply (wf : DotDims.WF ⟨2, ![m, cin]⟩ ⟨2, ![cin, cout]⟩ ⟨2, ![m, cout]⟩ [1] [0] [0] [1] [] [])
    (X : FVec Ideal ⟨2, ![m, cin]⟩ .f32) (W : FVec Ideal ⟨2, ![cin, cout]⟩ .f32)
    (b : FVec Ideal ⟨2, ![1, cout]⟩ .f32) (hlt : FTy.bf16.bits < FTy.f32.bits)
    (hs : (⟨2, ![1, cout]⟩ : Shape).ShapeCasts ⟨2, ![1, cout]⟩)
    (hb : (⟨2, ![1, cout]⟩ : Shape).Broadcasts ⟨2, ![m, cout]⟩) (p : Fin m) (q : Fin cout) :
    addf (matmul (PlainDot.dims wf) none (truncf .bf16 X hlt) (truncf .bf16 W hlt)
          (constant ⟨2, ![m, cout]⟩ .f32 0x00000000#32))
        (broadcastTo ⟨2, ![m, cout]⟩ (shapeCast ⟨2, ![1, cout]⟩ b hs) hb) (ix2 p q)
      = linAt X W b p q := by
  rw [shapeCast_self]
  simp only [addf, Ideal.addf_def]
  rw [PlainDot.matmul_zero_apply, Rows.bcastRow_apply]
  rfl

/-- The kernel's combine stage at (p, q) of its block. -/
theorem kcomb_apply (wf : DotDims.WF ⟨2, ![m, cin]⟩ ⟨2, ![cin, cout]⟩ ⟨2, ![m, cout]⟩ [1] [0] [0] [1] [] [])
    (S : FVec Ideal ⟨2, ![m, cin]⟩ .f32) (d : FVec Ideal ⟨2, ![m, 1]⟩ .f32) (H : FVec Ideal ⟨2, ![m, cin]⟩ .f32)
    (Wa Wr : FVec Ideal ⟨2, ![cin, cout]⟩ .f32) (b : FVec Ideal ⟨2, ![1, cout]⟩ .f32)
    (hlt : FTy.bf16.bits < FTy.f32.bits)
    (hd : (⟨2, ![m, 1]⟩ : Shape).ShapeCasts ⟨2, ![m, 1]⟩)
    (hx : (⟨2, ![m, cin]⟩ : Shape).ShapeCasts ⟨2, ![m, cin]⟩)
    (hdb : (⟨2, ![m, 1]⟩ : Shape).Broadcasts ⟨2, ![m, cin]⟩)
    (hs : (⟨2, ![1, cout]⟩ : Shape).ShapeCasts ⟨2, ![1, cout]⟩)
    (hb : (⟨2, ![1, cout]⟩ : Shape).Broadcasts ⟨2, ![m, cout]⟩) (p : Fin m) (q : Fin cout) :
    tanh (addf (addf
          (matmul (PlainDot.dims wf) none
            (truncf .bf16 (divf (shapeCast ⟨2, ![m, cin]⟩ S hx)
              (broadcastTo ⟨2, ![m, cin]⟩ (shapeCast ⟨2, ![m, 1]⟩ d hd) hdb)) hlt)
            (truncf .bf16 Wa hlt) (constant ⟨2, ![m, cout]⟩ .f32 0x00000000#32))
          (matmul (PlainDot.dims wf) none (truncf .bf16 (shapeCast ⟨2, ![m, cin]⟩ H hx) hlt)
            (truncf .bf16 Wr hlt) (constant ⟨2, ![m, cout]⟩ .f32 0x00000000#32)))
        (broadcastTo ⟨2, ![m, cout]⟩ (shapeCast ⟨2, ![1, cout]⟩ b hs) hb)) (ix2 p q)
      = combAt S d H Wa Wr b p q := by
  rw [shapeCast_self, shapeCast_self, shapeCast_self, shapeCast_self]
  simp only [tanh, addf, Ideal.addf_def, Ideal.tanh_def]
  rw [PlainDot.matmul_zero_apply, PlainDot.matmul_zero_apply, Rows.bcastRow_apply]
  unfold combAt
  refine congrArg Ideal.tanh (congrArg (· + b (ix2 (0 : Fin 1) q)) (congrArg (· + _) ?_))
  refine Finset.sum_congr rfl fun k _ => congrArg (· * Wa (ix2 k q)) ?_
  show Ideal.div (S (ix2 p k)) (broadcastTo ⟨2, ![m, cin]⟩ d hdb (ix2 p k)) = _
  rw [Keepdims.bcastCol_apply]

/-! ## The host's spelling, on all n rows -/

/-- The host's linear stage is `lin` with the bias vector viewed as a row. -/
theorem hlin (wf : DotDims.WF ⟨2, ![n, cin]⟩ ⟨2, ![cin, cout]⟩ ⟨2, ![n, cout]⟩ [1] [0] [0] [1] [] [])
    (X : FVec Ideal ⟨2, ![n, cin]⟩ .f32) (W : FVec Ideal ⟨2, ![cin, cout]⟩ .f32) (bias : FVec Ideal ⟨1, ![cout]⟩ .f32)
    (h1 : (⟨1, ![cout]⟩ : Shape).BroadcastsInDim ⟨2, ![1, cout]⟩ ![1])
    (h2 : (⟨2, ![1, cout]⟩ : Shape).BroadcastsInDim ⟨2, ![n, cout]⟩ ![0, 1])
    (hc : (⟨1, ![cout]⟩ : Shape).ShapeCasts ⟨2, ![1, cout]⟩) :
    addf (Host.dotGeneral (PlainDot.dims wf) none X W)
        (broadcastInDim ⟨2, ![n, cout]⟩ ![0, 1] h2 (broadcastInDim ⟨2, ![1, cout]⟩ ![1] h1 bias))
      = lin X W (shapeCast ⟨2, ![1, cout]⟩ bias hc) := by
  rw [← Rows.castRow_eq_dimRow bias hc h1]
  funext j
  obtain ⟨p, q, rfl⟩ : ∃ (p : Fin n) (q : Fin cout), j = ix2 p q := ⟨j 0, j 1, eq_ix2 j⟩
  simp only [addf, Ideal.addf_def]
  rw [PlainDot.dotGeneral_apply, Rows.dimRow_apply]
  rfl

/-- A length-a vector cast to an a × 1 column is the vector broadcast along dimension 0: both read, at (p, ·), the
    vector at p. -/
theorem castCol_eq_dimCol {α : Type} {a : Nat} (v : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨p, u, rfl⟩ : ∃ (p : Fin a) (u : Fin 1), j = ix2 p u := ⟨j 0, j 1, eq_ix2 j⟩
  rw [Keepdims.col_apply]
  refine (broadcastInDim_apply _ hb v (ix2 p u) (ix1 p) fun ax => ?_).symm
  match ax with
  | ⟨0, _⟩ =>
    show p.val = if a = 1 then 0 else p.val
    split
    · have := p.isLt; omega
    · rfl

/-- The host's combine stage is `comb` with the degree vector viewed as a column and the bias vector as a row. -/
theorem hcomb (wf : DotDims.WF ⟨2, ![n, cin]⟩ ⟨2, ![cin, cout]⟩ ⟨2, ![n, cout]⟩ [1] [0] [0] [1] [] [])
    (S : FVec Ideal ⟨2, ![n, cin]⟩ .f32) (deg : FVec Ideal ⟨1, ![n]⟩ .f32) (H : FVec Ideal ⟨2, ![n, cin]⟩ .f32)
    (Wa Wr : FVec Ideal ⟨2, ![cin, cout]⟩ .f32) (bias : FVec Ideal ⟨1, ![cout]⟩ .f32)
    (g1 : (⟨1, ![n]⟩ : Shape).BroadcastsInDim ⟨2, ![n, 1]⟩ ![0])
    (g2 : (⟨2, ![n, 1]⟩ : Shape).BroadcastsInDim ⟨2, ![n, cin]⟩ ![0, 1])
    (h1 : (⟨1, ![cout]⟩ : Shape).BroadcastsInDim ⟨2, ![1, cout]⟩ ![1])
    (h2 : (⟨2, ![1, cout]⟩ : Shape).BroadcastsInDim ⟨2, ![n, cout]⟩ ![0, 1])
    (gc : (⟨1, ![n]⟩ : Shape).ShapeCasts ⟨2, ![n, 1]⟩)
    (hc : (⟨1, ![cout]⟩ : Shape).ShapeCasts ⟨2, ![1, cout]⟩) :
    Host.tanh (addf (addf
          (Host.dotGeneral (PlainDot.dims wf) none
            (Host.divf S (broadcastInDim ⟨2, ![n, cin]⟩ ![0, 1] g2 (broadcastInDim ⟨2, ![n, 1]⟩ ![0] g1 deg))) Wa)
          (Host.dotGeneral (PlainDot.dims wf) none H Wr))
        (broadcastInDim ⟨2, ![n, cout]⟩ ![0, 1] h2 (broadcastInDim ⟨2, ![1, cout]⟩ ![1] h1 bias)))
      = comb S (shapeCast ⟨2, ![n, 1]⟩ deg gc) H Wa Wr (shapeCast ⟨2, ![1, cout]⟩ bias hc) := by
  rw [← Rows.castRow_eq_dimRow bias hc h1, ← castCol_eq_dimCol deg gc g1]
  funext j
  obtain ⟨p, q, rfl⟩ : ∃ (p : Fin n) (q : Fin cout), j = ix2 p q := ⟨j 0, j 1, eq_ix2 j⟩
  simp only [Host.tanh, addf, Ideal.addf_def, Ideal.hostUnary_tanh_def]
  rw [PlainDot.dotGeneral_apply, PlainDot.dotGeneral_apply, Rows.dimRow_apply]
  show _ = combAt _ _ _ _ _ _ p q
  unfold combAt
  refine congrArg Ideal.tanh (congrArg (· + _) (congrArg (· + _) ?_))
  refine Finset.sum_congr rfl fun k _ => congrArg (· * Wa (ix2 k q)) ?_
  simp only [Host.divf, Ideal.hostDivf_def]
  rw [Rows.dimCol_apply]

/-! ## A block of rows of a stage is the stage of that block of rows -/

/-- The linear unit read from blocks that hold row r of X as their row p, column q' of W as their column q, and the
    bias at q' as their bias at q. -/
theorem linAt_block (A0 : (⟨2, ![n, cin]⟩ : Shape).Idx → EReal) (A1 : (⟨2, ![cin, cout]⟩ : Shape).Idx → EReal)
    (A2 : (⟨2, ![1, cout]⟩ : Shape).Idx → EReal) (x0 : (⟨2, ![m, cin]⟩ : Shape).Idx → EReal)
    (x1 : (⟨2, ![cin, cout]⟩ : Shape).Idx → EReal) (x2 : (⟨2, ![1, cout]⟩ : Shape).Idx → EReal)
    (r : Fin n) (q' : Fin cout) (p : Fin m) (q : Fin cout)
    (h0 : ∀ k, x0 (ix2 p k) = A0 (ix2 r k)) (h1 : ∀ k, x1 (ix2 k q) = A1 (ix2 k q'))
    (h2 : x2 (ix2 (0 : Fin 1) q) = A2 (ix2 (0 : Fin 1) q')) :
    linAt x0 x1 x2 p q = linAt A0 A1 A2 r q' := by
  unfold linAt
  rw [h2]
  exact congrArg (· + _) (Finset.sum_congr rfl fun k _ => by rw [h0, h1])

/-- The combine unit read from blocks in the same way. -/
theorem combAt_block (A0 : (⟨2, ![n, cin]⟩ : Shape).Idx → EReal) (Ad : (⟨2, ![n, 1]⟩ : Shape).Idx → EReal)
    (AH : (⟨2, ![n, cin]⟩ : Shape).Idx → EReal) (Aa Ar : (⟨2, ![cin, cout]⟩ : Shape).Idx → EReal)
    (Ab : (⟨2, ![1, cout]⟩ : Shape).Idx → EReal)
    (x0 : (⟨2, ![m, cin]⟩ : Shape).Idx → EReal) (xd : (⟨2, ![m, 1]⟩ : Shape).Idx → EReal)
    (xH : (⟨2, ![m, cin]⟩ : Shape).Idx → EReal) (xa xr : (⟨2, ![cin, cout]⟩ : Shape).Idx → EReal)
    (xb : (⟨2, ![1, cout]⟩ : Shape).Idx → EReal)
    (r : Fin n) (q' : Fin cout) (p : Fin m) (q : Fin cout)
    (h0 : ∀ k, x0 (ix2 p k) = A0 (ix2 r k)) (hd : xd (ix2 p (0 : Fin 1)) = Ad (ix2 r (0 : Fin 1)))
    (hH : ∀ k, xH (ix2 p k) = AH (ix2 r k))
    (ha : ∀ k, xa (ix2 k q) = Aa (ix2 k q')) (hr : ∀ k, xr (ix2 k q) = Ar (ix2 k q'))
    (hb : xb (ix2 (0 : Fin 1) q) = Ab (ix2 (0 : Fin 1) q')) :
    combAt x0 xd xH xa xr xb p q = combAt A0 Ad AH Aa Ar Ab r q' := by
  unfold combAt
  rw [hb, hd]
  refine congrArg Ideal.tanh (congrArg (· + _) ?_)
  rw [Finset.sum_congr rfl fun k _ => show Ideal.div (x0 (ix2 p k)) _ * xa (ix2 k q) = Ideal.div (A0 (ix2 r k)) _ * Aa (ix2 k q') by rw [h0, ha],
    Finset.sum_congr rfl fun k _ => show xH (ix2 p k) * xr (ix2 k q) = AH (ix2 r k) * Ar (ix2 k q') by rw [hH, hr]]

/-! ## The network -/

/-- Two rounds: project, then twice combine the aggregate of the current features with the features themselves.
    The aggregate step (`agg₁`, `agg₂`: sum the features of every node's neighbours) and the degree column are
    parameters: the two programs compute them by the same host operations, which are never opened. -/
def net {c0 c1 c2 c3 : Nat}
    (agg₁ : ((⟨2, ![n, c1]⟩ : Shape).Idx → EReal) → (⟨2, ![n, c1]⟩ : Shape).Idx → EReal)
    (agg₂ : ((⟨2, ![n, c2]⟩ : Shape).Idx → EReal) → (⟨2, ![n, c2]⟩ : Shape).Idx → EReal)
    (d : (⟨2, ![n, 1]⟩ : Shape).Idx → EReal)
    (X : (⟨2, ![n, c0]⟩ : Shape).Idx → EReal) (W : (⟨2, ![c0, c1]⟩ : Shape).Idx → EReal)
    (b : (⟨2, ![1, c1]⟩ : Shape).Idx → EReal)
    (Wa₁ Wr₁ : (⟨2, ![c1, c2]⟩ : Shape).Idx → EReal) (b₁ : (⟨2, ![1, c2]⟩ : Shape).Idx → EReal)
    (Wa₂ Wr₂ : (⟨2, ![c2, c3]⟩ : Shape).Idx → EReal) (b₂ : (⟨2, ![1, c3]⟩ : Shape).Idx → EReal) :
    (⟨2, ![n, c3]⟩ : Shape).Idx → EReal :=
  let h := lin X W b
  let h₂ := comb (agg₁ h) d h Wa₁ Wr₁ b₁
  comb (agg₂ h₂) d h₂ Wa₂ Wr₂ b₂

end Cert.Sage

end
-- ==== Proof.Project.lean ====
/-
  The first grid: the input projection.

  Grid point t stages rows 5000·t … 5000·t + 4999 of the node features, the whole weight matrix and the bias row, and
  writes the same rows of the result. Entry (p, q) of the body's value is the linear unit of row p of its block, so what
  point t writes back is block t of the linear stage of the whole arrays; the twenty blocks tile the 100000 rows, so the
  result array ends as the linear stage — whatever the staged arrays hold when the grid is entered.
-/
import proofs.«123004_j10307921511081_1_alg».proof.Proof.Gen.KernelIdeal.Frame
import proofs.«123004_j10307921511081_1_alg».proof.Proof.LibSageStages

set_option maxRecDepth 16384

noncomputable section

namespace Cert.KernelIdeal.Project

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The body's value at (p, q) of its block is the linear unit of row p. -/
theorem pay (x0 : Vec Ideal S5000x64 .f32) (x1 : Vec Ideal S64x64 .f32) (x2 : Vec Ideal S1x64 .f32)
    (p : Fin 5000) (q : Fin 64) : k0_pay1 x0 x1 x2 (ix2 p q) = Sage.linAt x0 x1 x2 p q :=
  Sage.klin_apply dot_S5000x64_S64x64_S5000x64_1_0_0_1_n_n_wf x0 x1 x2 bitsLt_bf16_f32 shapeCasts_S1x64_S1x64
    broadcasts_S1x64_S5000x64 p q

/-- The block index maps over the grid: the features and the result move together along the rows, point t at row
    block t; the weights and the bias stay at block (0, 0). -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the linear stage of the staged arrays. -/
theorem flushed_eq (c : Dev nD) (t : Fin cfg0.N) :
    (dat0 V c).flushed 3 t = ((cfg0.win 3).blk t).view.read (Elt Ideal)
      (Sage.lin (n := 100000) (cin := 64) (cout := 64) (V c main_arg0) (V c main_arg2) (V c main_v11)) := by
  show (cfg0.win 3).cut (grid0.coords t) ((dat0 V c).after 3 t) = _
  rw [after0_3]
  unfold out0_3
  rw [View.canon_unit_zero zeros]
  simp only [View.ld_unit_zero (S := S5000x64) zeros, View.ld_unit_zero (S := S64x64) zeros,
    View.ld_unit_zero (S := S1x64) zeros]
  obtain ⟨e0, e1, e2, e3, e4, e5, e6, e7⟩ := index_facts t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = Sage.linAt (n := 100000) (cin := 64) (cout := 64) (V c main_arg0) (V c main_arg2) (V c main_v11)
        ((((cfg0.win 3).blk t).view.emb (ix2 p q)) 0) ((((cfg0.win 3).blk t).view.emb (ix2 p q)) 1)
  refine (pay _ _ _ p q).trans ?_
  refine Sage.linAt_block _ _ _ _ _ _ _ _ p q (fun k => ?_) (fun k => ?_) ?_
  · show V c main_arg0 (((cfg0.win 0).blk t).view.emb (ix2 p k)) = V c main_arg0 _
    refine congrArg (V c main_arg0) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 64 + 1 * k.val = k.val
      omega
  · show V c main_arg2 (((cfg0.win 1).blk t).view.emb (ix2 k q)) = V c main_arg2 _
    refine congrArg (V c main_arg2) (funext fun a => Fin.ext ?_)
    match a with
    | ⟨0, _⟩ =>
      show win0_1.index t (0 : Fin 2) * 64 + 1 * k.val = k.val
      omega
    | ⟨1, _⟩ =>
      show win0_1.index t (1 : Fin 2) * 64 + 1 * q.val = win0_3.index t (1 : Fin 2) * 64 + 1 * q.val
      omega
  · show V c main_v11 (((cfg0.win 2).blk t).view.emb (ix2 (0 : Fin 1) q)) = V c main_v11 _
    refine congrArg (V c main_v11) (funext fun a => Fin.ext ?_)
    match a with
    | ⟨0, _⟩ =>
      show win0_2.index t (0 : Fin 2) * 1 + 1 * 0 = 0
      omega
    | ⟨1, _⟩ =>
      show win0_2.index t (1 : Fin 2) * 64 + 1 * q.val = win0_3.index t (1 : Fin 2) * 64 + 1 * q.val
      omega

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v12).slice (win0_3.rect t)).set ↔ _
  rw [View.set_slice_whole, Rect.mem_set_unit]
  exact Iff.rfl

/-- Row r is in the block of point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5, e6, e7⟩ := index_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The result array after the grid is the linear stage of the staged arrays. -/
theorem final (c : Dev nD) : (dat0 V c).arrAt 3 cfg0.N
    = Sage.lin (n := 100000) (cin := 64) (cout := 64) (V c main_arg0) (V c main_arg2) (V c main_v11) :=
  (dat0 V c).arrAt_eq_of_cover 3 _ (fun t _ => flushed_eq V c t) cover

end Cert.KernelIdeal.Project

end
-- ==== Proof.CombineFirst.lean ====
/-
  The second grid: the first combine stage.

  Grid point t stages rows 5000·t … 5000·t + 4999 of the neighbour sums, of the degree column and of the projected
  features, both 64 × 16 weight matrices and the bias row, and writes the same rows of the result. Entry (p, q) of the
  body's value is the combine unit of node p of its block, so what point t writes back is block t of the combine stage
  of the whole arrays; the twenty blocks tile the 100000 nodes, so the result array ends as the combine stage —
  whatever the staged arrays hold when the grid is entered.
-/
import proofs.«123004_j10307921511081_1_alg».proof.Proof.Gen.KernelIdeal.Frame
import proofs.«123004_j10307921511081_1_alg».proof.Proof.LibSageStages

set_option maxRecDepth 16384

noncomputable section

namespace Cert.KernelIdeal.CombineFirst

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The body's value at (p, q) of its block is the combine unit of node p of the block. -/
theorem pay (xd : Vec Ideal S5000x1 .f32) (xS xH : Vec Ideal S5000x64 .f32) (xa xr : Vec Ideal S64x16 .f32)
    (xb : Vec Ideal S1x16 .f32) (p : Fin 5000) (q : Fin 16) :
    k1_pay1 xd xS xH xa xr xb (ix2 p q) = Sage.combAt xS xd xH xa xr xb p q :=
  Sage.kcomb_apply dot_S5000x64_S64x16_S5000x16_1_0_0_1_n_n_wf xS xd xH xa xr xb bitsLt_bf16_f32 shapeCasts_S5000x1_S5000x1
    shapeCasts_S5000x64_S5000x64 broadcasts_S5000x1_S5000x64 shapeCasts_S1x16_S1x16 broadcasts_S1x16_S5000x16 p q

/-- The block index maps over the grid: the neighbour sums, the degree column, the node features and the result move
    together along the rows, point t at row block t; the two weight matrices and the bias stay at block (0, 0). -/
theorem index_facts : ∀ t : Fin cfg1.N, win1_0.index t (0 : Fin 2) = win1_6.index t (0 : Fin 2)
    ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the combine stage of the staged arrays. -/
theorem flushed_eq (c : Dev nD) (t : Fin cfg1.N) :
    (dat1 V c).flushed 6 t = ((cfg1.win 6).blk t).view.read (Elt Ideal)
      (Sage.comb (n := 100000) (cin := 64) (cout := 16) (V c main_v22) (V c main_v10) (V c main_v12) (V c main_arg4) (V c main_arg5) (V c main_v23)) := by
  show (cfg1.win 6).cut (grid1.coords t) ((dat1 V c).after 6 t) = _
  rw [after1_6]
  unfold out1_6
  rw [View.canon_unit_zero zeros]
  simp only [View.ld_unit_zero (S := S5000x1) zeros, View.ld_unit_zero (S := S5000x64) zeros,
    View.ld_unit_zero (S := S64x16) zeros, View.ld_unit_zero (S := S1x16) zeros]
  obtain ⟨e0, e1, e2, e3, e4, e5, e6, e7, e8, e9, e10, e11, e12, e13⟩ := index_facts t
  funext j
  obtain ⟨p, q, rfl⟩ : ∃ (p : Fin 5000) (q : Fin 16), j = ix2 p q := ⟨j 0, j 1, eq_ix2 j⟩
  show k1_pay1 (iblk1 V c 1 t) (iblk1 V c 0 t) (iblk1 V c 2 t) (iblk1 V c 3 t) (iblk1 V c 4 t) (iblk1 V c 5 t) (ix2 p q)
    = Sage.combAt (n := 100000) (cin := 64) (cout := 16) (V c main_v22) (V c main_v10) (V c main_v12) (V c main_arg4) (V c main_arg5) (V c main_v23)
        ((((cfg1.win 6).blk t).view.emb (ix2 p q)) 0) ((((cfg1.win 6).blk t).view.emb (ix2 p q)) 1)
  refine (pay _ _ _ _ _ _ p q).trans ?_
  refine Sage.combAt_block _ _ _ _ _ _ _ _ _ _ _ _ _ _ p q (fun k => ?_) ?_ (fun k => ?_) (fun k => ?_) (fun k => ?_) ?_
  · show V c main_v22 (((cfg1.win 0).blk t).view.emb (ix2 p k)) = V c main_v22 _
    refine congrArg (V c main_v22) (funext fun a => Fin.ext ?_)
    match a with
    | ⟨0, _⟩ =>
      show win1_0.index t (0 : Fin 2) * 5000 + 1 * p.val = win1_6.index t (0 : Fin 2) * 5000 + 1 * p.val
      omega
    | ⟨1, _⟩ =>
      show win1_0.index t (1 : Fin 2) * 64 + 1 * k.val = k.val
      omega
  · show V c main_v10 (((cfg1.win 1).blk t).view.emb (ix2 p (0 : Fin 1))) = V c main_v10 _
    refine congrArg (V c main_v10) (funext fun a => Fin.ext ?_)
    match a with
    | ⟨0, _⟩ =>
      show win1_1.index t (0 : Fin 2) * 5000 + 1 * p.val = win1_6.index t (0 : Fin 2) * 5000 + 1 * p.val
      omega
    | ⟨1, _⟩ =>
      show win1_1.index t (1 : Fin 2) * 1 + 1 * 0 = 0
      omega
  · show V c main_v12 (((cfg1.win 2).blk t).view.emb (ix2 p k)) = V c main_v12 _
    refine congrArg (V c main_v12) (funext fun a => Fin.ext ?_)
    match a with
    | ⟨0, _⟩ =>
      show win1_2.index t (0 : Fin 2) * 5000 + 1 * p.val = win1_6.index t (0 : Fin 2) * 5000 + 1 * p.val
      omega
    | ⟨1, _⟩ =>
      show win1_2.index t (1 : Fin 2) * 64 + 1 * k.val = k.val
      omega
  · show V c main_arg4 (((cfg1.win 3).blk t).view.emb (ix2 k q)) = V c main_arg4 _
    refine congrArg (V c main_arg4) (funext fun a => Fin.ext ?_)
    match a with
    | ⟨0, _⟩ =>
      show win1_3.index t (0 : Fin 2) * 64 + 1 * k.val = k.val
      omega
    | ⟨1, _⟩ =>
      show win1_3.index t (1 : Fin 2) * 16 + 1 * q.val = win1_6.index t (1 : Fin 2) * 16 + 1 * q.val
      omega
  · show V c main_arg5 (((cfg1.win 4).blk t).view.emb (ix2 k q)) = V c main_arg5 _
    refine congrArg (V c main_arg5) (funext fun a => Fin.ext ?_)
    match a with
    | ⟨0, _⟩ =>
      show win1_4.index t (0 : Fin 2) * 64 + 1 * k.val = k.val
      omega
    | ⟨1, _⟩ =>
      show win1_4.index t (1 : Fin 2) * 16 + 1 * q.val = win1_6.index t (1 : Fin 2) * 16 + 1 * q.val
      omega
  · show V c main_v23 (((cfg1.win 5).blk t).view.emb (ix2 (0 : Fin 1) q)) = V c main_v23 _
    refine congrArg (V c main_v23) (funext fun a => Fin.ext ?_)
    match a with
    | ⟨0, _⟩ =>
      show win1_5.index t (0 : Fin 2) * 1 + 1 * 0 = 0
      omega
    | ⟨1, _⟩ =>
      show win1_5.index t (1 : Fin 2) * 16 + 1 * q.val = win1_6.index t (1 : Fin 2) * 16 + 1 * q.val
      omega

/-- An index of the result array is in point t's block iff each coordinate is in the block's range on its axis. -/
theorem mem_blk (t : Fin cfg1.N) (i : S100000x16.Idx) :
    i ∈ ((cfg1.win 6).blk t).view.set ↔ ∀ a : Fin 2, win1_6.index t a * S5000x16.size a ≤ (i a).val
      ∧ (i a).val < win1_6.index t a * S5000x16.size a + S5000x16.size a := by
  show i ∈ ((View.whole main_v24).slice (win1_6.rect t)).set ↔ _
  rw [View.set_slice_whole, Rect.mem_set_unit]
  exact Iff.rfl

/-- Node r is in the block of point r / 5000. -/
theorem cover (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7, e8, e9, e10, e11, e12, e13⟩ := index_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 16 ≤ (i 1).val ∧ (i 1).val < win1_6.index t (1 : Fin 2) * 16 + 16
    omega

/-- The result array after the grid is the combine stage of the staged arrays. -/
theorem final (c : Dev nD) : (dat1 V c).arrAt 6 cfg1.N
    = Sage.comb (n := 100000) (cin := 64) (cout := 16) (V c main_v22) (V c main_v10) (V c main_v12) (V c main_arg4) (V c main_arg5) (V c main_v23) :=
  (dat1 V c).arrAt_eq_of_cover 6 _ (fun t _ => flushed_eq V c t) cover

end Cert.KernelIdeal.CombineFirst

end
-- ==== Proof.CombineSecond.lean ====
/-
  The third grid: the second combine stage.

  The same body as the first combine stage at the other widths: 16 features in, 64 out. Grid point t stages rows
  5000·t … 5000·t + 4999 of the neighbour sums, of the degree column and of the hidden features, both 16 × 64 weight
  matrices and the bias row; what it writes back is block t of the combine stage of the whole arrays, the twenty blocks
  tile the 100000 nodes, and the result array ends as the combine stage of whatever the staged arrays hold at entry.
-/
import proofs.«123004_j10307921511081_1_alg».proof.Proof.Gen.KernelIdeal.Frame
import proofs.«123004_j10307921511081_1_alg».proof.Proof.LibSageStages

set_option maxRecDepth 16384

noncomputable section

namespace Cert.KernelIdeal.CombineSecond

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The body's value at (p, q) of its block is the combine unit of node p of the block. -/
theorem pay (xd : Vec Ideal S5000x1 .f32) (xS xH : Vec Ideal S5000x16 .f32) (xa xr : Vec Ideal S16x64 .f32)
    (xb : Vec Ideal S1x64 .f32) (p : Fin 5000) (q : Fin 64) :
    k2_pay1 xd xS xH xa xr xb (ix2 p q) = Sage.combAt xS xd xH xa xr xb p q :=
  Sage.kcomb_apply dot_S5000x16_S16x64_S5000x64_1_0_0_1_n_n_wf xS xd xH xa xr xb bitsLt_bf16_f32 shapeCasts_S5000x1_S5000x1
    shapeCasts_S5000x16_S5000x16 broadcasts_S5000x1_S5000x16 shapeCasts_S1x64_S1x64 broadcasts_S1x64_S5000x64 p q

/-- The block index maps over the grid: the neighbour sums, the degree column, the node features and the result move
    together along the rows, point t at row block t; the two weight matrices and the bias stay at block (0, 0). -/
theorem index_facts : ∀ t : Fin cfg2.N, win2_0.index t (0 : Fin 2) = win2_6.index t (0 : Fin 2)
    ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the combine stage of the staged arrays. -/
theorem flushed_eq (c : Dev nD) (t : Fin cfg2.N) :
    (dat2 V c).flushed 6 t = ((cfg2.win 6).blk t).view.read (Elt Ideal)
      (Sage.comb (n := 100000) (cin := 16) (cout := 64) (V c main_v34) (V c main_v10) (V c main_v24) (V c main_arg7) (V c main_arg8) (V c main_v35)) := by
  show (cfg2.win 6).cut (grid2.coords t) ((dat2 V c).after 6 t) = _
  rw [after2_6]
  unfold out2_6
  rw [View.canon_unit_zero zeros]
  simp only [View.ld_unit_zero (S := S5000x1) zeros, View.ld_unit_zero (S := S5000x16) zeros,
    View.ld_unit_zero (S := S16x64) zeros, View.ld_unit_zero (S := S1x64) zeros]
  obtain ⟨e0, e1, e2, e3, e4, e5, e6, e7, e8, e9, e10, e11, e12, e13⟩ := index_facts t
  funext j
  obtain ⟨p, q, rfl⟩ : ∃ (p : Fin 5000) (q : Fin 64), j = ix2 p q := ⟨j 0, j 1, eq_ix2 j⟩
  show k2_pay1 (iblk2 V c 1 t) (iblk2 V c 0 t) (iblk2 V c 2 t) (iblk2 V c 3 t) (iblk2 V c 4 t) (iblk2 V c 5 t) (ix2 p q)
    = Sage.combAt (n := 100000) (cin := 16) (cout := 64) (V c main_v34) (V c main_v10) (V c main_v24) (V c main_arg7) (V c main_arg8) (V c main_v35)
        ((((cfg2.win 6).blk t).view.emb (ix2 p q)) 0) ((((cfg2.win 6).blk t).view.emb (ix2 p q)) 1)
  refine (pay _ _ _ _ _ _ p q).trans ?_
  refine Sage.combAt_block _ _ _ _ _ _ _ _ _ _ _ _ _ _ p q (fun k => ?_) ?_ (fun k => ?_) (fun k => ?_) (fun k => ?_) ?_
  · show V c main_v34 (((cfg2.win 0).blk t).view.emb (ix2 p k)) = V c main_v34 _
    refine congrArg (V c main_v34) (funext fun a => Fin.ext ?_)
    match a with
    | ⟨0, _⟩ =>
      show win2_0.index t (0 : Fin 2) * 5000 + 1 * p.val = win2_6.index t (0 : Fin 2) * 5000 + 1 * p.val
      omega
    | ⟨1, _⟩ =>
      show win2_0.index t (1 : Fin 2) * 16 + 1 * k.val = k.val
      omega
  · show V c main_v10 (((cfg2.win 1).blk t).view.emb (ix2 p (0 : Fin 1))) = V c main_v10 _
    refine congrArg (V c main_v10) (funext fun a => Fin.ext ?_)
    match a with
    | ⟨0, _⟩ =>
      show win2_1.index t (0 : Fin 2) * 5000 + 1 * p.val = win2_6.index t (0 : Fin 2) * 5000 + 1 * p.val
      omega
    | ⟨1, _⟩ =>
      show win2_1.index t (1 : Fin 2) * 1 + 1 * 0 = 0
      omega
  · show V c main_v24 (((cfg2.win 2).blk t).view.emb (ix2 p k)) = V c main_v24 _
    refine congrArg (V c main_v24) (funext fun a => Fin.ext ?_)
    match a with
    | ⟨0, _⟩ =>
      show win2_2.index t (0 : Fin 2) * 5000 + 1 * p.val = win2_6.index t (0 : Fin 2) * 5000 + 1 * p.val
      omega
    | ⟨1, _⟩ =>
      show win2_2.index t (1 : Fin 2) * 16 + 1 * k.val = k.val
      omega
  · show V c main_arg7 (((cfg2.win 3).blk t).view.emb (ix2 k q)) = V c main_arg7 _
    refine congrArg (V c main_arg7) (funext fun a => Fin.ext ?_)
    match a with
    | ⟨0, _⟩ =>
      show win2_3.index t (0 : Fin 2) * 16 + 1 * k.val = k.val
      omega
    | ⟨1, _⟩ =>
      show win2_3.index t (1 : Fin 2) * 64 + 1 * q.val = win2_6.index t (1 : Fin 2) * 64 + 1 * q.val
      omega
  · show V c main_arg8 (((cfg2.win 4).blk t).view.emb (ix2 k q)) = V c main_arg8 _
    refine congrArg (V c main_arg8) (funext fun a => Fin.ext ?_)
    match a with
    | ⟨0, _⟩ =>
      show win2_4.index t (0 : Fin 2) * 16 + 1 * k.val = k.val
      omega
    | ⟨1, _⟩ =>
      show win2_4.index t (1 : Fin 2) * 64 + 1 * q.val = win2_6.index t (1 : Fin 2) * 64 + 1 * q.val
      omega
  · show V c main_v35 (((cfg2.win 5).blk t).view.emb (ix2 (0 : Fin 1) q)) = V c main_v35 _
    refine congrArg (V c main_v35) (funext fun a => Fin.ext ?_)
    match a with
    | ⟨0, _⟩ =>
      show win2_5.index t (0 : Fin 2) * 1 + 1 * 0 = 0
      omega
    | ⟨1, _⟩ =>
      show win2_5.index t (1 : Fin 2) * 64 + 1 * q.val = win2_6.index t (1 : Fin 2) * 64 + 1 * q.val
      omega

/-- An index of the result array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v36).slice (win2_6.rect t)).set ↔ _
  rw [View.set_slice_whole, Rect.mem_set_unit]
  exact Iff.rfl

/-- Node r is in the block of point r / 5000. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5, e6, e7, e8, e9, e10, e11, e12, e13⟩ := index_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- The result array after the grid is the combine stage of the staged arrays. -/
theorem final (c : Dev nD) : (dat2 V c).arrAt 6 cfg2.N
    = Sage.comb (n := 100000) (cin := 16) (cout := 64) (V c main_v34) (V c main_v10) (V c main_v24) (V c main_arg7) (V c main_arg8) (V c main_v35) :=
  (dat2 V c).arrAt_eq_of_cover 6 _ (fun t _ => flushed_eq V c t) cover

end Cert.KernelIdeal.CombineSecond

end
-- ==== Proof.KernelOps.lean ====
/-
  The host operations around the dense stages of the idealized kernel, named once.

  The edge list is a 2 × 1000000 array of node numbers: row 0 the source of each edge, row 1 its destination. A node's
  degree is the number of edges that end at it, found by scatter-adding ones at the destinations, and is floored at 1.
  The aggregate of an array of node features sums, for every node, the features of the sources of the edges that end at
  it: a source number below zero is first moved up by the number of nodes, the features are gathered at the sources and
  scatter-added into zeros at the destinations. None of these is ever opened; what matters is only that both programs
  apply the same ones.
-/
import proofs.«123004_j10307921511081_1_alg».proof.Proof.Gen.KernelIdeal

noncomputable section

namespace Cert.KernelIdeal.Ops

open Cert.KernelIdeal Cert.KernelIdeal.Gen Idealize.ShloMosaic

variable {F : FTy → Type} [FloatOps F]

/-- The source node of every edge. -/
def src (e : (⟨S2x1000000, .i32⟩ : BufTy).Contents (Elt F)) : (⟨S1000000, .i32⟩ : BufTy).Contents (Elt F) :=
  shapeCast S1000000 (extractStridedSlice S1x1000000 ![0, 0] e slices_S2x1000000_S1x1000000_0_0)
    shapeCasts_S1x1000000_S1000000

/-- The destination node of every edge. -/
def dst (e : (⟨S2x1000000, .i32⟩ : BufTy).Contents (Elt F)) : (⟨S1000000, .i32⟩ : BufTy).Contents (Elt F) :=
  shapeCast S1000000 (extractStridedSlice S1x1000000 ![1, 0] e slices_S2x1000000_S1x1000000_1_0)
    shapeCasts_S1x1000000_S1000000

/-- Every node's degree, floored at 1. -/
def degree (d : (⟨S1000000, .i32⟩ : BufTy).Contents (Elt F)) : (⟨S100000, .f32⟩ : BufTy).Contents (Elt F) :=
  maximumf
    (Host.scatterAdd scatter_S100000_S1000000x1_S1000000_n_0_0_1
      (broadcastInDim S100000 ![] bcast_S_S100000 (constant (F := F) S_ .f32 0x00000000#32))
      (broadcastInDim S1000000x1 ![0] bcast_S1000000_S1000000x1_0 d)
      (broadcastInDim S1000000 ![] bcast_S_S1000000 (constant (F := F) S_ .f32 0x3F800000#32)))
    (broadcastInDim S100000 ![] bcast_S_S100000 (constant (F := F) S_ .f32 0x3F800000#32))

/-- Source numbers with the negative ones moved up by the number of nodes. -/
def wrapped (s : (⟨S1000000, .i32⟩ : BufTy).Contents (Elt F)) : (⟨S1000000, .i32⟩ : BufTy).Contents (Elt F) :=
  select (cmpi .slt s (broadcastInDim S1000000 ![] bcast_S_S1000000 (constantI S_ 32 0#32)))
    (addi s (broadcastInDim S1000000 ![] bcast_S_S1000000 (constantI S_ 32 100000#32))) s

/-- The aggregate of 64 features per node. -/
def agg64 (s d : (⟨S1000000, .i32⟩ : BufTy).Contents (Elt F)) (h : (⟨S100000x64, .f32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant (F := F) S_ .f32 0x00000000#32))
    (broadcastInDim S1000000x1 ![0] bcast_S1000000_S1000000x1_0 d)
    (Host.gather gather_S100000x64_S1000000x1_S1000000x64_1_0_n_n_0_1_164 h
      (broadcastInDim S1000000x1 ![0] bcast_S1000000_S1000000x1_0 (wrapped s)))

/-- The aggregate of 16 features per node. -/
def agg16 (s d : (⟨S1000000, .i32⟩ : BufTy).Contents (Elt F)) (h : (⟨S100000x16, .f32⟩ : BufTy).Contents (Elt F)) :
    (⟨S100000x16, .f32⟩ : BufTy).Contents (Elt F) :=
  Host.scatterAdd scatter_S100000x16_S1000000x1_S1000000x16_1_0_0_1
    (broadcastInDim S100000x16 ![] bcast_S_S100000x16 (constant (F := F) S_ .f32 0x00000000#32))
    (broadcastInDim S1000000x1 ![0] bcast_S1000000_S1000000x1_0 d)
    (Host.gather gather_S100000x16_S1000000x1_S1000000x16_1_0_n_n_0_1_116 h
      (broadcastInDim S1000000x1 ![0] bcast_S1000000_S1000000x1_0 (wrapped s)))

end Cert.KernelIdeal.Ops

end
-- ==== Proof.Unwound.lean ====
/-
  The idealized kernel's result, unwound.

  The buffer contents at the six boundaries of the program are a fold from the launch memory. Read at the buffers the
  next stage takes, every boundary's contents are named here in closed form, each from the boundary before it: a buffer a
  stretch of host operations writes is the operations' term of the buffers they read; a buffer the stretch does not write
  keeps its contents; a grid's result array is the dense stage of the arrays it staged (the three grids' modules); an
  array a grid only reads, and every buffer it does not touch, keeps its contents. At the last boundary the result buffer
  holds the second combine stage of the aggregate of the first, which holds the combine stage of the aggregate of the
  projection: the network.
-/
import proofs.«123004_j10307921511081_1_alg».proof.Proof.Gen.KernelIdeal.Frame
import proofs.«123004_j10307921511081_1_alg».proof.Proof.Project
import proofs.«123004_j10307921511081_1_alg».proof.Proof.CombineFirst
import proofs.«123004_j10307921511081_1_alg».proof.Proof.CombineSecond
import proofs.«123004_j10307921511081_1_alg».proof.Proof.KernelOps
import Idealize.ShloMosaic.Lib.StableHlo.Run

set_option maxRecDepth 16384

noncomputable section

namespace Cert.KernelIdeal.Unwound

open Cert.KernelIdeal Cert.KernelIdeal.Gen Idealize.ShloMosaic Idealize.ShloMosaic.TcCoe Idealize.SL.Sem
  Idealize.ShloMosaic.StableHlo
open Idealize.ShloMosaic.Pipeline (Dat)

variable (m : (ℓ : Loc nD τ sig) → Buf (Elt Ideal) ℓ) (ρ : Dev nD → PrngReg)

/-- A stretch of host operations leaves a buffer none of them writes as it was. -/
local macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The projected features: the linear stage of the launch contents. -/
abbrev hid (c : Dev nD) : S100000x64.Idx → EReal :=
  Sage.lin (n := 100000) (cin := 64) (cout := 64) (m ((c : Thread nD τ).loc main_arg0)) (m ((c : Thread nD τ).loc main_arg2)) (shapeCast S1x64 (m ((c : Thread nD τ).loc main_arg3)) shapeCasts_S64_S1x64)

/-- The hidden features: the first combine stage. -/
abbrev hid₂ (c : Dev nD) : S100000x16.Idx → EReal :=
  Sage.comb (n := 100000) (cin := 64) (cout := 16) (Ops.agg64 (Ops.src (m ((c : Thread nD τ).loc main_arg1))) (Ops.dst (m ((c : Thread nD τ).loc main_arg1))) (hid m c)) (shapeCast S100000x1 (Ops.degree (Ops.dst (m ((c : Thread nD τ).loc main_arg1)))) shapeCasts_S100000_S100000x1) (hid m c)
    (m ((c : Thread nD τ).loc main_arg4)) (m ((c : Thread nD τ).loc main_arg5)) (shapeCast S1x16 (m ((c : Thread nD τ).loc main_arg6)) shapeCasts_S16_S1x16)

/-- The output: the second combine stage. -/
abbrev out (c : Dev nD) : S100000x64.Idx → EReal :=
  Sage.comb (n := 100000) (cin := 16) (cout := 64) (Ops.agg16 (Ops.src (m ((c : Thread nD τ).loc main_arg1))) (Ops.dst (m ((c : Thread nD τ).loc main_arg1))) (hid₂ m c)) (shapeCast S100000x1 (Ops.degree (Ops.dst (m ((c : Thread nD τ).loc main_arg1)))) shapeCasts_S100000_S100000x1) (hid₂ m c)
    (m ((c : Thread nD τ).loc main_arg7)) (m ((c : Thread nD τ).loc main_arg8)) (shapeCast S1x64 (m ((c : Thread nD τ).loc main_arg9)) shapeCasts_S64_S1x64)

variable (c : Dev nD)

/-! ## After the first stretch of host operations -/

theorem at1_src : W1 m ρ c (Proc.devRef .tc main_v1)
    = Ops.src (m ((c : Thread nD τ).loc main_arg1)) :=
  by
  show StableHlo.after hostOps0 (W0 m ρ c) (Proc.devRef .tc main_v1) = _
  dsimp only [hostOps0]
  after_results
  rfl
theorem at1_dst : W1 m ρ c (Proc.devRef .tc main_v3)
    = Ops.dst (m ((c : Thread nD τ).loc main_arg1)) :=
  by
  show StableHlo.after hostOps0 (W0 m ρ c) (Proc.devRef .tc main_v3) = _
  dsimp only [hostOps0]
  after_results
  rfl
theorem at1_deg : W1 m ρ c (Proc.devRef .tc main_v10)
    = shapeCast S100000x1 (Ops.degree (Ops.dst (m ((c : Thread nD τ).loc main_arg1)))) shapeCasts_S100000_S100000x1 :=
  by
  show StableHlo.after hostOps0 (W0 m ρ c) (Proc.devRef .tc main_v10) = _
  dsimp only [hostOps0]
  after_results
  rfl
theorem at1_bias : W1 m ρ c (Proc.devRef .tc main_v11)
    = shapeCast S1x64 (m ((c : Thread nD τ).loc main_arg3)) shapeCasts_S64_S1x64 :=
  by
  show StableHlo.after hostOps0 (W0 m ρ c) (Proc.devRef .tc main_v11) = _
  dsimp only [hostOps0]
  after_results
  rfl
theorem at1_main_arg0 : W1 m ρ c (Proc.devRef .tc main_arg0)
    = m ((c : Thread nD τ).loc main_arg0) :=
  by
  show StableHlo.after hostOps0 (W0 m ρ c) (Proc.devRef .tc main_arg0) = _
  unwritten hostOps0
theorem at1_main_arg2 : W1 m ρ c (Proc.devRef .tc main_arg2)
    = m ((c : Thread nD τ).loc main_arg2) :=
  by
  show StableHlo.after hostOps0 (W0 m ρ c) (Proc.devRef .tc main_arg2) = _
  unwritten hostOps0
theorem at1_main_arg4 : W1 m ρ c (Proc.devRef .tc main_arg4)
    = m ((c : Thread nD τ).loc main_arg4) :=
  by
  show StableHlo.after hostOps0 (W0 m ρ c) (Proc.devRef .tc main_arg4) = _
  unwritten hostOps0
theorem at1_main_arg5 : W1 m ρ c (Proc.devRef .tc main_arg5)
    = m ((c : Thread nD τ).loc main_arg5) :=
  by
  show StableHlo.after hostOps0 (W0 m ρ c) (Proc.devRef .tc main_arg5) = _
  unwritten hostOps0
theorem at1_main_arg6 : W1 m ρ c (Proc.devRef .tc main_arg6)
    = m ((c : Thread nD τ).loc main_arg6) :=
  by
  show StableHlo.after hostOps0 (W0 m ρ c) (Proc.devRef .tc main_arg6) = _
  unwritten hostOps0
theorem at1_main_arg7 : W1 m ρ c (Proc.devRef .tc main_arg7)
    = m ((c : Thread nD τ).loc main_arg7) :=
  by
  show StableHlo.after hostOps0 (W0 m ρ c) (Proc.devRef .tc main_arg7) = _
  unwritten hostOps0
theorem at1_main_arg8 : W1 m ρ c (Proc.devRef .tc main_arg8)
    = m ((c : Thread nD τ).loc main_arg8) :=
  by
  show StableHlo.after hostOps0 (W0 m ρ c) (Proc.devRef .tc main_arg8) = _
  unwritten hostOps0
theorem at1_main_arg9 : W1 m ρ c (Proc.devRef .tc main_arg9)
    = m ((c : Thread nD τ).loc main_arg9) :=
  by
  show StableHlo.after hostOps0 (W0 m ρ c) (Proc.devRef .tc main_arg9) = _
  unwritten hostOps0

/-! ## After the first grid -/

theorem at2_hid : W2 m ρ c (Proc.devRef .tc main_v12)
    = hid m c :=
  by
  refine (W2_arr m ρ c 3).trans ((Project.final (V1 m ρ) c).trans ?_)
  show Sage.lin (W1 m ρ c (Proc.devRef .tc main_arg0)) (W1 m ρ c (Proc.devRef .tc main_arg2)) (W1 m ρ c (Proc.devRef .tc main_v11)) = _
  rw [at1_main_arg0, at1_main_arg2, at1_bias]
theorem at2_src : W2 m ρ c (Proc.devRef .tc main_v1)
    = Ops.src (m ((c : Thread nD τ).loc main_arg1)) :=
  (W2_of_ne m ρ c main_v1 (by decide)).trans (at1_src m ρ c)
theorem at2_dst : W2 m ρ c (Proc.devRef .tc main_v3)
    = Ops.dst (m ((c : Thread nD τ).loc main_arg1)) :=
  (W2_of_ne m ρ c main_v3 (by decide)).trans (at1_dst m ρ c)
theorem at2_deg : W2 m ρ c (Proc.devRef .tc main_v10)
    = shapeCast S100000x1 (Ops.degree (Ops.dst (m ((c : Thread nD τ).loc main_arg1)))) shapeCasts_S100000_S100000x1 :=
  (W2_of_ne m ρ c main_v10 (by decide)).trans (at1_deg m ρ c)
theorem at2_main_arg4 : W2 m ρ c (Proc.devRef .tc main_arg4)
    = m ((c : Thread nD τ).loc main_arg4) :=
  (W2_of_ne m ρ c main_arg4 (by decide)).trans (at1_main_arg4 m ρ c)
theorem at2_main_arg5 : W2 m ρ c (Proc.devRef .tc main_arg5)
    = m ((c : Thread nD τ).loc main_arg5) :=
  (W2_of_ne m ρ c main_arg5 (by decide)).trans (at1_main_arg5 m ρ c)
theorem at2_main_arg6 : W2 m ρ c (Proc.devRef .tc main_arg6)
    = m ((c : Thread nD τ).loc main_arg6) :=
  (W2_of_ne m ρ c main_arg6 (by decide)).trans (at1_main_arg6 m ρ c)
theorem at2_main_arg7 : W2 m ρ c (Proc.devRef .tc main_arg7)
    = m ((c : Thread nD τ).loc main_arg7) :=
  (W2_of_ne m ρ c main_arg7 (by decide)).trans (at1_main_arg7 m ρ c)
theorem at2_main_arg8 : W2 m ρ c (Proc.devRef .tc main_arg8)
    = m ((c : Thread nD τ).loc main_arg8) :=
  (W2_of_ne m ρ c main_arg8 (by decide)).trans (at1_main_arg8 m ρ c)
theorem at2_main_arg9 : W2 m ρ c (Proc.devRef .tc main_arg9)
    = m ((c : Thread nD τ).loc main_arg9) :=
  (W2_of_ne m ρ c main_arg9 (by decide)).trans (at1_main_arg9 m ρ c)

/-! ## After the second stretch of host operations -/

theorem at3_agg : W3 m ρ c (Proc.devRef .tc main_v22)
    = Ops.agg64 (Ops.src (m ((c : Thread nD τ).loc main_arg1))) (Ops.dst (m ((c : Thread nD τ).loc main_arg1))) (hid m c) :=
  by
  have raw : W3 m ρ c (Proc.devRef .tc main_v22)
      = Ops.agg64 (W2 m ρ c (Proc.devRef .tc main_v1)) (W2 m ρ c (Proc.devRef .tc main_v3)) (W2 m ρ c (Proc.devRef .tc main_v12)) := by
    show StableHlo.after hostOps1 (W2 m ρ c) (Proc.devRef .tc main_v22) = _
    dsimp only [hostOps1]
    after_results
    rfl
  rw [raw, at2_src, at2_dst, at2_hid]
theorem at3_bias : W3 m ρ c (Proc.devRef .tc main_v23)
    = shapeCast S1x16 (m ((c : Thread nD τ).loc main_arg6)) shapeCasts_S16_S1x16 :=
  by
  have raw : W3 m ρ c (Proc.devRef .tc main_v23) = shapeCast S1x16 (W2 m ρ c (Proc.devRef .tc main_arg6)) shapeCasts_S16_S1x16 := by
    show StableHlo.after hostOps1 (W2 m ρ c) (Proc.devRef .tc main_v23) = _
    dsimp only [hostOps1]
    after_results
    rfl
  rw [raw, at2_main_arg6]
theorem at3_src : W3 m ρ c (Proc.devRef .tc main_v1)
    = Ops.src (m ((c : Thread nD τ).loc main_arg1)) :=
  Eq.trans (by
    show StableHlo.after hostOps1 (W2 m ρ c) (Proc.devRef .tc main_v1) = _
    unwritten hostOps1) (at2_src m ρ c)
theorem at3_dst : W3 m ρ c (Proc.devRef .tc main_v3)
    = Ops.dst (m ((c : Thread nD τ).loc main_arg1)) :=
  Eq.trans (by
    show StableHlo.after hostOps1 (W2 m ρ c) (Proc.devRef .tc main_v3) = _
    unwritten hostOps1) (at2_dst m ρ c)
theorem at3_deg : W3 m ρ c (Proc.devRef .tc main_v10)
    = shapeCast S100000x1 (Ops.degree (Ops.dst (m ((c : Thread nD τ).loc main_arg1)))) shapeCasts_S100000_S100000x1 :=
  Eq.trans (by
    show StableHlo.after hostOps1 (W2 m ρ c) (Proc.devRef .tc main_v10) = _
    unwritten hostOps1) (at2_deg m ρ c)
theorem at3_hid : W3 m ρ c (Proc.devRef .tc main_v12)
    = hid m c :=
  Eq.trans (by
    show StableHlo.after hostOps1 (W2 m ρ c) (Proc.devRef .tc main_v12) = _
    unwritten hostOps1) (at2_hid m ρ c)
theorem at3_main_arg4 : W3 m ρ c (Proc.devRef .tc main_arg4)
    = m ((c : Thread nD τ).loc main_arg4) :=
  Eq.trans (by
    show StableHlo.after hostOps1 (W2 m ρ c) (Proc.devRef .tc main_arg4) = _
    unwritten hostOps1) (at2_main_arg4 m ρ c)
theorem at3_main_arg5 : W3 m ρ c (Proc.devRef .tc main_arg5)
    = m ((c : Thread nD τ).loc main_arg5) :=
  Eq.trans (by
    show StableHlo.after hostOps1 (W2 m ρ c) (Proc.devRef .tc main_arg5) = _
    unwritten hostOps1) (at2_main_arg5 m ρ c)
theorem at3_main_arg7 : W3 m ρ c (Proc.devRef .tc main_arg7)
    = m ((c : Thread nD τ).loc main_arg7) :=
  Eq.trans (by
    show StableHlo.after hostOps1 (W2 m ρ c) (Proc.devRef .tc main_arg7) = _
    unwritten hostOps1) (at2_main_arg7 m ρ c)
theorem at3_main_arg8 : W3 m ρ c (Proc.devRef .tc main_arg8)
    = m ((c : Thread nD τ).loc main_arg8) :=
  Eq.trans (by
    show StableHlo.after hostOps1 (W2 m ρ c) (Proc.devRef .tc main_arg8) = _
    unwritten hostOps1) (at2_main_arg8 m ρ c)
theorem at3_main_arg9 : W3 m ρ c (Proc.devRef .tc main_arg9)
    = m ((c : Thread nD τ).loc main_arg9) :=
  Eq.trans (by
    show StableHlo.after hostOps1 (W2 m ρ c) (Proc.devRef .tc main_arg9) = _
    unwritten hostOps1) (at2_main_arg9 m ρ c)

/-! ## After the second grid -/

theorem at4_hid : W4 m ρ c (Proc.devRef .tc main_v24)
    = hid₂ m c :=
  by
  refine (W4_arr m ρ c 6).trans ((CombineFirst.final (V3 m ρ) c).trans ?_)
  show Sage.comb (W3 m ρ c (Proc.devRef .tc main_v22)) (W3 m ρ c (Proc.devRef .tc main_v10)) (W3 m ρ c (Proc.devRef .tc main_v12)) (W3 m ρ c (Proc.devRef .tc main_arg4)) (W3 m ρ c (Proc.devRef .tc main_arg5)) (W3 m ρ c (Proc.devRef .tc main_v23)) = _
  rw [at3_agg, at3_deg, at3_hid, at3_main_arg4, at3_main_arg5, at3_bias]
theorem at4_src : W4 m ρ c (Proc.devRef .tc main_v1)
    = Ops.src (m ((c : Thread nD τ).loc main_arg1)) :=
  (W4_of_ne m ρ c main_v1 (by decide)).trans (at3_src m ρ c)
theorem at4_dst : W4 m ρ c (Proc.devRef .tc main_v3)
    = Ops.dst (m ((c : Thread nD τ).loc main_arg1)) :=
  (W4_of_ne m ρ c main_v3 (by decide)).trans (at3_dst m ρ c)
theorem at4_main_arg7 : W4 m ρ c (Proc.devRef .tc main_arg7)
    = m ((c : Thread nD τ).loc main_arg7) :=
  (W4_of_ne m ρ c main_arg7 (by decide)).trans (at3_main_arg7 m ρ c)
theorem at4_main_arg8 : W4 m ρ c (Proc.devRef .tc main_arg8)
    = m ((c : Thread nD τ).loc main_arg8) :=
  (W4_of_ne m ρ c main_arg8 (by decide)).trans (at3_main_arg8 m ρ c)
theorem at4_main_arg9 : W4 m ρ c (Proc.devRef .tc main_arg9)
    = m ((c : Thread nD τ).loc main_arg9) :=
  (W4_of_ne m ρ c main_arg9 (by decide)).trans (at3_main_arg9 m ρ c)
theorem at4_deg : W4 m ρ c (Proc.devRef .tc main_v10)
    = shapeCast S100000x1 (Ops.degree (Ops.dst (m ((c : Thread nD τ).loc main_arg1)))) shapeCasts_S100000_S100000x1 :=
  ((W4_arr m ρ c 1).trans (((dat1 (V3 m ρ) c).arrAt_in 1 rfl _).trans (A_eq1 (V3 m ρ) c 1))).trans (at3_deg m ρ c)

/-! ## After the third stretch of host operations -/

theorem at5_agg : W5 m ρ c (Proc.devRef .tc main_v34)
    = Ops.agg16 (Ops.src (m ((c : Thread nD τ).loc main_arg1))) (Ops.dst (m ((c : Thread nD τ).loc main_arg1))) (hid₂ m c) :=
  by
  have raw : W5 m ρ c (Proc.devRef .tc main_v34)
      = Ops.agg16 (W4 m ρ c (Proc.devRef .tc main_v1)) (W4 m ρ c (Proc.devRef .tc main_v3)) (W4 m ρ c (Proc.devRef .tc main_v24)) := by
    show StableHlo.after hostOps2 (W4 m ρ c) (Proc.devRef .tc main_v34) = _
    dsimp only [hostOps2]
    after_results
    rfl
  rw [raw, at4_src, at4_dst, at4_hid]
theorem at5_bias : W5 m ρ c (Proc.devRef .tc main_v35)
    = shapeCast S1x64 (m ((c : Thread nD τ).loc main_arg9)) shapeCasts_S64_S1x64 :=
  by
  have raw : W5 m ρ c (Proc.devRef .tc main_v35) = shapeCast S1x64 (W4 m ρ c (Proc.devRef .tc main_arg9)) shapeCasts_S64_S1x64 := by
    show StableHlo.after hostOps2 (W4 m ρ c) (Proc.devRef .tc main_v35) = _
    dsimp only [hostOps2]
    after_results
    rfl
  rw [raw, at4_main_arg9]
theorem at5_deg : W5 m ρ c (Proc.devRef .tc main_v10)
    = shapeCast S100000x1 (Ops.degree (Ops.dst (m ((c : Thread nD τ).loc main_arg1)))) shapeCasts_S100000_S100000x1 :=
  Eq.trans (by
    show StableHlo.after hostOps2 (W4 m ρ c) (Proc.devRef .tc main_v10) = _
    unwritten hostOps2) (at4_deg m ρ c)
theorem at5_hid : W5 m ρ c (Proc.devRef .tc main_v24)
    = hid₂ m c :=
  Eq.trans (by
    show StableHlo.after hostOps2 (W4 m ρ c) (Proc.devRef .tc main_v24) = _
    unwritten hostOps2) (at4_hid m ρ c)
theorem at5_main_arg7 : W5 m ρ c (Proc.devRef .tc main_arg7)
    = m ((c : Thread nD τ).loc main_arg7) :=
  Eq.trans (by
    show StableHlo.after hostOps2 (W4 m ρ c) (Proc.devRef .tc main_arg7) = _
    unwritten hostOps2) (at4_main_arg7 m ρ c)
theorem at5_main_arg8 : W5 m ρ c (Proc.devRef .tc main_arg8)
    = m ((c : Thread nD τ).loc main_arg8) :=
  Eq.trans (by
    show StableHlo.after hostOps2 (W4 m ρ c) (Proc.devRef .tc main_arg8) = _
    unwritten hostOps2) (at4_main_arg8 m ρ c)

/-! ## After the third grid -/

/-- The result buffer at the last boundary is the network's output. -/
theorem result : W6 m ρ c (Proc.devRef .tc main_v36)
    = out m c :=
  by
  refine (W6_arr m ρ c 6).trans ((CombineSecond.final (V5 m ρ) c).trans ?_)
  show Sage.comb (W5 m ρ c (Proc.devRef .tc main_v34)) (W5 m ρ c (Proc.devRef .tc main_v10)) (W5 m ρ c (Proc.devRef .tc main_v24)) (W5 m ρ c (Proc.devRef .tc main_arg7)) (W5 m ρ c (Proc.devRef .tc main_arg8)) (W5 m ρ c (Proc.devRef .tc main_v35)) = _
  rw [at5_agg, at5_deg, at5_hid, at5_main_arg7, at5_main_arg8, at5_bias]

end Cert.KernelIdeal.Unwound

end
-- ==== Proof.ReferenceOps.lean ====
/-
  The host operations around the dense stages of the idealized reference, named once.

  The edge list is a 2 × 1000000 array of node numbers: row 0 the source of each edge, row 1 its destination. A node's
  degree is the number of edges that end at it, found by scatter-adding ones at the destinations, and is floored at 1.
  The aggregate of an array of node features sums, for every node, the features of the sources of the edges that end at
  it: a source number below zero is first moved up by the number of nodes, the features are gathered at the sources and
  scatter-added into zeros at the destinations. None of these is ever opened; what matters is only that both programs
  apply the same ones.
-/
import proofs.«123004_j10307921511081_1_alg».proof.Proof.Gen.ReferenceIdeal

noncomputable section

namespace Cert.ReferenceIdeal.Ops

open Cert.ReferenceIdeal Cert.ReferenceIdeal.Gen Idealize.ShloMosaic

variable {F : FTy → Type} [FloatOps F]

/-- The source node of every edge. -/
def src (e : (⟨S2x1000000, .i32⟩ : BufTy).Contents (Elt F)) : (⟨S1000000, .i32⟩ : BufTy).Contents (Elt F) :=
  shapeCast S1000000 (extractStridedSlice S1x1000000 ![0, 0] e slices_S2x1000000_S1x1000000_0_0)
    shapeCasts_S1x1000000_S1000000

/-- The destination node of every edge. -/
def dst (e : (⟨S2x1000000, .i32⟩ : BufTy).Contents (Elt F)) : (⟨S1000000, .i32⟩ : BufTy).Contents (Elt F) :=
  shapeCast S1000000 (extractStridedSlice S1x1000000 ![1, 0] e slices_S2x1000000_S1x1000000_1_0)
    shapeCasts_S1x1000000_S1000000

/-- Every node's degree, floored at 1. -/
def degree (d : (⟨S1000000, .i32⟩ : BufTy).Contents (Elt F)) : (⟨S100000, .f32⟩ : BufTy).Contents (Elt F) :=
  maximumf
    (Host.scatterAdd scatter_S100000_S1000000x1_S1000000_n_0_0_1
      (broadcastInDim S100000 ![] bcast_S_S100000 (constant (F := F) S_ .f32 0x00000000#32))
      (broadcastInDim S1000000x1 ![0] bcast_S1000000_S1000000x1_0 d)
      (broadcastInDim S1000000 ![] bcast_S_S1000000 (constant (F := F) S_ .f32 0x3F800000#32)))
    (broadcastInDim S100000 ![] bcast_S_S100000 (constant (F := F) S_ .f32 0x3F800000#32))

/-- Source numbers with the negative ones moved up by the number of nodes. -/
def wrapped (s : (⟨S1000000, .i32⟩ : BufTy).Contents (Elt F)) : (⟨S1000000, .i32⟩ : BufTy).Contents (Elt F) :=
  select (cmpi .slt s (broadcastInDim S1000000 ![] bcast_S_S1000000 (constantI S_ 32 0#32)))
    (addi s (broadcastInDim S1000000 ![] bcast_S_S1000000 (constantI S_ 32 100000#32))) s

/-- The aggregate of 64 features per node. -/
def agg64 (s d : (⟨S1000000, .i32⟩ : BufTy).Contents (Elt F)) (h : (⟨S100000x64, .f32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant (F := F) S_ .f32 0x00000000#32))
    (broadcastInDim S1000000x1 ![0] bcast_S1000000_S1000000x1_0 d)
    (Host.gather gather_S100000x64_S1000000x1_S1000000x64_1_0_n_n_0_1_164 h
      (broadcastInDim S1000000x1 ![0] bcast_S1000000_S1000000x1_0 (wrapped s)))

/-- The aggregate of 16 features per node. -/
def agg16 (s d : (⟨S1000000, .i32⟩ : BufTy).Contents (Elt F)) (h : (⟨S100000x16, .f32⟩ : BufTy).Contents (Elt F)) :
    (⟨S100000x16, .f32⟩ : BufTy).Contents (Elt F) :=
  Host.scatterAdd scatter_S100000x16_S1000000x1_S1000000x16_1_0_0_1
    (broadcastInDim S100000x16 ![] bcast_S_S100000x16 (constant (F := F) S_ .f32 0x00000000#32))
    (broadcastInDim S1000000x1 ![0] bcast_S1000000_S1000000x1_0 d)
    (Host.gather gather_S100000x16_S1000000x1_S1000000x16_1_0_n_n_0_1_116 h
      (broadcastInDim S1000000x1 ![0] bcast_S1000000_S1000000x1_0 (wrapped s)))

end Cert.ReferenceIdeal.Ops

end
-- ==== Proof.ReferenceValue.lean ====
/-
  The idealized reference computes the network.

  Read one operation at a time, the reference is: a general dot product plus the bias broadcast (the linear stage); twice,
  the aggregate of the current features divided by the degree column broadcast across the columns, multiplied by one
  weight matrix, plus the features times the other, plus the bias broadcast, under tanh (the combine stage). The degree
  is computed twice, by the same operations of the same destinations. So the result is the network of the arguments,
  with the aggregate steps and the degree the named host operations.
-/
import proofs.«123004_j10307921511081_1_alg».proof.Proof.Gen.ReferenceIdeal.Read
import proofs.«123004_j10307921511081_1_alg».proof.Proof.ReferenceOps
import proofs.«123004_j10307921511081_1_alg».proof.Proof.LibSageStages

noncomputable section

namespace Cert.ReferenceIdeal.RefValue

open Cert.ReferenceIdeal Cert.ReferenceIdeal.Gen Cert.ReferenceIdeal.Read Idealize.ShloMosaic Idealize.ShloMosaic.TcCoe
  Idealize.SL.Sem

variable (x0 : (⟨S100000x64, .f32⟩ : BufTy).Contents (Elt Ideal)) (x1 : (⟨S2x1000000, .i32⟩ : BufTy).Contents (Elt Ideal))
  (x2 : (⟨S64x64, .f32⟩ : BufTy).Contents (Elt Ideal)) (x3 : (⟨S64, .f32⟩ : BufTy).Contents (Elt Ideal))
  (x4 x5 : (⟨S64x16, .f32⟩ : BufTy).Contents (Elt Ideal)) (x6 : (⟨S16, .f32⟩ : BufTy).Contents (Elt Ideal))
  (x7 x8 : (⟨S16x64, .f32⟩ : BufTy).Contents (Elt Ideal)) (x9 : (⟨S64, .f32⟩ : BufTy).Contents (Elt Ideal))

/-- The first aggregate is the named one, of the projected features. -/
theorem agg_first : val_main_v17 (F := Ideal) x0 x1 x2 x3
    = Ops.agg64 (Ops.src x1) (Ops.dst x1) (val_main_v7 (F := Ideal) x0 x2 x3) := rfl

/-- The second aggregate is the named one, of the hidden features. -/
theorem agg_second : val_main_v43 (F := Ideal) x0 x1 x2 x3 x4 x5 x6
    = Ops.agg16 (Ops.src x1) (Ops.dst x1) (val_main_v33 (F := Ideal) x0 x1 x2 x3 x4 x5 x6) := rfl

/-- The degree as the first round computes it. -/
theorem degree_first : val_main_v23 (F := Ideal) x1 = Ops.degree (Ops.dst x1) := rfl

/-- The degree as the second round computes it: the same. -/
theorem degree_second : val_main_v49 (F := Ideal) x1 = Ops.degree (Ops.dst x1) := rfl

/-- The projection is the linear stage. -/
theorem project (h3 : S64.ShapeCasts S1x64) :
    val_main_v7 (F := Ideal) x0 x2 x3 = Sage.lin (n := 100000) (cin := 64) (cout := 64) x0 x2 (shapeCast S1x64 x3 h3) := by
  unfold val_main_v7 val_main_v6 val_main_v5 val_main_v4
  exact Sage.hlin dot_S100000x64_S64x64_S100000x64_1_0_0_1_n_n_wf x0 x2 x3 bcast_S64_S1x64_1
    bcast_S1x64_S100000x64_0_1 h3

/-- The first round is the combine stage of the first aggregate, the degree column and the projected features. -/
theorem combine_first (gc : S100000.ShapeCasts S100000x1) (h6 : S16.ShapeCasts S1x16) :
    val_main_v33 (F := Ideal) x0 x1 x2 x3 x4 x5 x6
      = Sage.comb (n := 100000) (cin := 64) (cout := 16) (val_main_v17 (F := Ideal) x0 x1 x2 x3)
          (shapeCast S100000x1 (val_main_v23 (F := Ideal) x1) gc) (val_main_v7 (F := Ideal) x0 x2 x3) x4 x5
          (shapeCast S1x16 x6 h6) := by
  unfold val_main_v33 val_main_v32 val_main_v31 val_main_v30 val_main_v29 val_main_v28 val_main_v27 val_main_v26
    val_main_v25 val_main_v24
  generalize val_main_v17 (F := Ideal) x0 x1 x2 x3 = S
  generalize val_main_v23 (F := Ideal) x1 = D
  generalize val_main_v7 (F := Ideal) x0 x2 x3 = H
  exact Sage.hcomb dot_S100000x64_S64x16_S100000x16_1_0_0_1_n_n_wf S D H x4 x5 x6 bcast_S100000_S100000x1_0
    bcast_S100000x1_S100000x64_0_1 bcast_S16_S1x16_1 bcast_S1x16_S100000x16_0_1 gc h6

/-- The second round is the combine stage of the second aggregate, the degree column and the hidden features. -/
theorem combine_second (gc : S100000.ShapeCasts S100000x1) (h9 : S64.ShapeCasts S1x64) :
    val_main_v59 (F := Ideal) x0 x1 x2 x3 x4 x5 x6 x7 x8 x9
      = Sage.comb (n := 100000) (cin := 16) (cout := 64) (val_main_v43 (F := Ideal) x0 x1 x2 x3 x4 x5 x6)
          (shapeCast S100000x1 (val_main_v49 (F := Ideal) x1) gc) (val_main_v33 (F := Ideal) x0 x1 x2 x3 x4 x5 x6) x7 x8
          (shapeCast S1x64 x9 h9) := by
  unfold val_main_v59 val_main_v58 val_main_v57 val_main_v56 val_main_v55 val_main_v54 val_main_v53 val_main_v52
    val_main_v51 val_main_v50
  generalize val_main_v43 (F := Ideal) x0 x1 x2 x3 x4 x5 x6 = S
  generalize val_main_v49 (F := Ideal) x1 = D
  generalize val_main_v33 (F := Ideal) x0 x1 x2 x3 x4 x5 x6 = H
  exact Sage.hcomb dot_S100000x16_S16x64_S100000x64_1_0_0_1_n_n_wf S D H x7 x8 x9 bcast_S100000_S100000x1_0
    bcast_S100000x1_S100000x16_0_1 bcast_S64_S1x64_1 bcast_S1x64_S100000x64_0_1 gc h9

/-- The last stage is the network of the arguments. -/
theorem stage_eq (gc : S100000.ShapeCasts S100000x1) (h3 : S64.ShapeCasts S1x64) (h6 : S16.ShapeCasts S1x16)
    (h9 : S64.ShapeCasts S1x64) :
    val_main_v59 (F := Ideal) x0 x1 x2 x3 x4 x5 x6 x7 x8 x9
      = Sage.net (n := 100000) (c0 := 64) (c1 := 64) (c2 := 16) (c3 := 64)
          (Ops.agg64 (Ops.src x1) (Ops.dst x1)) (Ops.agg16 (Ops.src x1) (Ops.dst x1))
          (shapeCast S100000x1 (Ops.degree (Ops.dst x1)) gc)
          x0 x2 (shapeCast S1x64 x3 h3) x4 x5 (shapeCast S1x16 x6 h6) x7 x8 (shapeCast S1x64 x9 h9) := by
  rw [combine_second x0 x1 x2 x3 x4 x5 x6 x7 x8 x9 gc h9, agg_second, degree_second,
    combine_first x0 x1 x2 x3 x4 x5 x6 gc h6, agg_first, degree_first, project x0 x2 x3 h3]
  rfl

/-- The run's result term is the network of the launch contents of the arguments. -/
theorem result_eq (m : (ℓ : Loc nD τ sig) → Buf (Elt Ideal) ℓ) (c : Dev nD)
    (gc : S100000.ShapeCasts S100000x1) (h3 : S64.ShapeCasts S1x64) (h6 : S16.ShapeCasts S1x16)
    (h9 : S64.ShapeCasts S1x64) :
    Cert.ReferenceIdeal.Value.res_main_v59 m c
      = Sage.net (n := 100000) (c0 := 64) (c1 := 64) (c2 := 16) (c3 := 64)
          (Ops.agg64 (Ops.src (m ((c.tc : Thread nD τ).loc main_arg1))) (Ops.dst (m ((c.tc : Thread nD τ).loc main_arg1))))
          (Ops.agg16 (Ops.src (m ((c.tc : Thread nD τ).loc main_arg1))) (Ops.dst (m ((c.tc : Thread nD τ).loc main_arg1))))
          (shapeCast S100000x1 (Ops.degree (Ops.dst (m ((c.tc : Thread nD τ).loc main_arg1)))) gc)
          (m ((c.tc : Thread nD τ).loc main_arg0)) (m ((c.tc : Thread nD τ).loc main_arg2))
          (shapeCast S1x64 (m ((c.tc : Thread nD τ).loc main_arg3)) h3)
          (m ((c.tc : Thread nD τ).loc main_arg4)) (m ((c.tc : Thread nD τ).loc main_arg5))
          (shapeCast S1x16 (m ((c.tc : Thread nD τ).loc main_arg6)) h6)
          (m ((c.tc : Thread nD τ).loc main_arg7)) (m ((c.tc : Thread nD τ).loc main_arg8))
          (shapeCast S1x64 (m ((c.tc : Thread nD τ).loc main_arg9)) h9) :=
  (val_main_v59_eq m c).trans (stage_eq _ _ _ _ _ _ _ _ _ _ gc h3 h6 h9)

end Cert.ReferenceIdeal.RefValue

end
-- ==== Proof.Agreement.lean ====
/-
  The two idealized programs agree.

  Run from memories that agree on the arguments, the kernel's result buffer ends holding the network's output of the
  launch contents (its run, then the fold unwound) and the reference's result ends holding the network of its own launch
  contents (its run, read stage by stage). The aggregate steps and the degree are the same host operations in both
  programs — each program spells the shapes and the dimension records by its own names, which unfold to the same terms —
  and the kernel's reshapes of the degree vector and of the bias vectors are the reference's dimension broadcasts of
  them. So the two results are one function of the arguments; no finiteness of the inputs is used.
-/
import proofs.«123004_j10307921511081_1_alg».proof.Defs
import proofs.«123004_j10307921511081_1_alg».proof.Proof.Gen.Pre_finite_inputs
import proofs.«123004_j10307921511081_1_alg».proof.Proof.KernelRun
import proofs.«123004_j10307921511081_1_alg».proof.Proof.Unwound
import proofs.«123004_j10307921511081_1_alg».proof.Proof.ReferenceValue

noncomputable section

namespace Cert.Proof.Agreement

open Idealize.ShloMosaic Idealize.ShloMosaic.TcCoe Idealize.SL.Sem

/-- The reference's network of the kernel's launch contents is the kernel's output: the same stages over the same host
    operations. -/
theorem same (m : (ℓ : Loc Cert.KernelIdeal.nD Cert.KernelIdeal.τ Cert.KernelIdeal.sig) → Buf (Elt Ideal) ℓ)
    (c : Dev Cert.KernelIdeal.nD) :
    Sage.net (n := 100000) (c0 := 64) (c1 := 64) (c2 := 16) (c3 := 64)
        (Cert.ReferenceIdeal.Ops.agg64
          (Cert.ReferenceIdeal.Ops.src (m ((c.tc : Thread Cert.KernelIdeal.nD Cert.KernelIdeal.τ).loc Cert.KernelIdeal.main_arg1)))
          (Cert.ReferenceIdeal.Ops.dst (m ((c.tc : Thread Cert.KernelIdeal.nD Cert.KernelIdeal.τ).loc Cert.KernelIdeal.main_arg1))))
        (Cert.ReferenceIdeal.Ops.agg16
          (Cert.ReferenceIdeal.Ops.src (m ((c.tc : Thread Cert.KernelIdeal.nD Cert.KernelIdeal.τ).loc Cert.KernelIdeal.main_arg1)))
          (Cert.ReferenceIdeal.Ops.dst (m ((c.tc : Thread Cert.KernelIdeal.nD Cert.KernelIdeal.τ).loc Cert.KernelIdeal.main_arg1))))
        (shapeCast Cert.ReferenceIdeal.S100000x1
          (Cert.ReferenceIdeal.Ops.degree
            (Cert.ReferenceIdeal.Ops.dst (m ((c.tc : Thread Cert.KernelIdeal.nD Cert.KernelIdeal.τ).loc Cert.KernelIdeal.main_arg1))))
          Cert.KernelIdeal.Gen.shapeCasts_S100000_S100000x1)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (shapeCast Cert.ReferenceIdeal.S1x64
          (m ((c.tc : Thread Cert.KernelIdeal.nD Cert.KernelIdeal.τ).loc Cert.KernelIdeal.main_arg3))
          Cert.KernelIdeal.Gen.shapeCasts_S64_S1x64)
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (shapeCast Cert.ReferenceIdeal.S1x16
          (m ((c.tc : Thread Cert.KernelIdeal.nD Cert.KernelIdeal.τ).loc Cert.KernelIdeal.main_arg6))
          Cert.KernelIdeal.Gen.shapeCasts_S16_S1x16)
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (shapeCast Cert.ReferenceIdeal.S1x64
          (m ((c.tc : Thread Cert.KernelIdeal.nD Cert.KernelIdeal.τ).loc Cert.KernelIdeal.main_arg9))
          Cert.KernelIdeal.Gen.shapeCasts_S64_S1x64)
      = Cert.KernelIdeal.Unwound.out m c := rfl

/-- From memories agreeing on the arguments both idealized programs run and end with equal results. -/
theorem algebraic : Cert.algebraic_KernelIdeal_ReferenceIdeal := by
  intro m ρ m' ρ' _ hagree
  refine ⟨fun c => Cert.KernelIdeal.Unwound.out m c, ?_, ?_⟩
  · exact (θ_run Cert.KernelIdeal.defs _ _).mono
      (fun r h c => ⟨(h c).1.trans (Cert.KernelIdeal.Unwound.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.RefValue.result_eq m' c Cert.KernelIdeal.Gen.shapeCasts_S100000_S100000x1
      Cert.KernelIdeal.Gen.shapeCasts_S64_S1x64 Cert.KernelIdeal.Gen.shapeCasts_S16_S1x16
      Cert.KernelIdeal.Gen.shapeCasts_S64_S1x64, a0, a1, a2, a3, a4, a5, a6, a7, a8, a9]
    exact same m c

end Cert.Proof.Agreement

end
-- ==== Proof.lean ====
/-
  A two-layer neighbourhood-averaging network on 100000 nodes and a million edges: three grids of 5000-row blocks for its
  dense stages (the input projection and two combine stages) among host gathers and scatter-adds, against the same network
  written with whole-array operations.

  The three frames: the word-level kernel's and the idealized kernel's are the generated frame certificates; the
  reference's is its generated run with the result dropped. The idealization rewrote nothing, so there is nothing to
  preserve. On the extended reals the two idealized programs end with equal results: each grid's result array is the
  dense stage of the arrays it staged (a block of rows of a stage is the stage of that block of rows), the kernel's
  buffer contents unwind through its six boundaries to the network of its launch contents, the reference read stage by
  stage is the same network, and the host operations between the stages are the same in both.
-/
import proofs.«123004_j10307921511081_1_alg».proof.Defs
import proofs.«123004_j10307921511081_1_alg».proof.Proof.Gen.Kernel
import proofs.«123004_j10307921511081_1_alg».proof.Proof.Gen.Kernel.Skeleton
import proofs.«123004_j10307921511081_1_alg».proof.Proof.Gen.Kernel.Launch
import proofs.«123004_j10307921511081_1_alg».proof.Proof.Gen.Kernel.Points
import proofs.«123004_j10307921511081_1_alg».proof.Proof.Gen.Kernel.Frame
import proofs.«123004_j10307921511081_1_alg».proof.Proof.Gen.KernelIdeal
import proofs.«123004_j10307921511081_1_alg».proof.Proof.Gen.KernelIdeal.Skeleton
import proofs.«123004_j10307921511081_1_alg».proof.Proof.Gen.KernelIdeal.Launch
import proofs.«123004_j10307921511081_1_alg».proof.Proof.Gen.KernelIdeal.Points
import proofs.«123004_j10307921511081_1_alg».proof.Proof.Gen.KernelIdeal.Frame
import proofs.«123004_j10307921511081_1_alg».proof.Proof.Gen.ReferenceIdeal
import proofs.«123004_j10307921511081_1_alg».proof.Proof.Gen.ReferenceIdeal.Run
import proofs.«123004_j10307921511081_1_alg».proof.Proof.Gen.ReferenceIdeal.Read
import proofs.«123004_j10307921511081_1_alg».proof.Proof.Gen.Pre_finite_inputs
import proofs.«123004_j10307921511081_1_alg».proof.Proof.Agreement
import Idealize.ShloMosaic.Adequacy
import Idealize.ShloMosaic.Init

noncomputable section

namespace Cert.Proof

open Idealize.ShloMosaic Idealize.SL.Sem Cert.Kernel

/-- The five claims under the programs' stated side conditions. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Agreement.algebraic⟩

end Cert.Proof

end
